-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 105
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x32, .f32⟩
  | .hbm, ⟨96, _⟩ => ⟨S1700000x1, .f32⟩
  | .hbm, ⟨97, _⟩ => ⟨S1700000x32, .f32⟩
  | .hbm, ⟨98, _⟩ => ⟨S1700000x32, .f32⟩
  | .hbm, ⟨99, _⟩ => ⟨S_, .f32⟩
  | .hbm, ⟨100, _⟩ => ⟨S100000x32, .f32⟩
  | .hbm, ⟨101, _⟩ => ⟨S1700000x1, .i32⟩
  | .hbm, ⟨102, _⟩ => ⟨S100000x32, .f32⟩
  | .hbm, ⟨103, _⟩ => ⟨S1x32, .f32⟩
  | .hbm, ⟨104, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x32.size a ≤ S100000x32.size a
  hwx4_2 : ∀ i : grid4.Coords, EltTy.bits .f32 = 32 ∨ (Rect.block (s := S100000x32) S10000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x32.size a ≤ S100000x32.size a
  hwx5_2 : ∀ i : grid5.Coords, EltTy.bits .f32 = 32 ∨ (Rect.block (s := S100000x32) S10000x32.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x1, .f32⟩
  | .hbm, ⟨82, _⟩ => ⟨S1700000x32, .f32⟩
  | .hbm, ⟨83, _⟩ => ⟨S1700000x32, .f32⟩
  | .hbm, ⟨84, _⟩ => ⟨S_, .f32⟩
  | .hbm, ⟨85, _⟩ => ⟨S100000x32, .f32⟩
  | .hbm, ⟨86, _⟩ => ⟨S1700000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program's run with its two results named.

  Every weakly fair execution of the program from a memory with zero counters terminates without a fault, and when
  it has, each of the two result buffers holds what the last of the program's twelve segments (six stretches of
  host operations and six calls) leaves in it — the buffer contents folded segment by segment from the launch memory —
  and the eight argument arrays are as launched. This is the launch argument of the program's frame with the two
  result buffers kept in the conclusion beside the arguments: the final thread state holds every unscoped buffer at
  the last segment's contents, and the results are two of those buffers.
-/
import proofs.«140030_j7791070674960_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both result buffers at the last segment's contents, the arguments as launched. -/
theorem run : θ_run defs (onTc (τ := τ) (main (F := F))) ⟨m, fun _ => 0, ρ⟩ (fun r => ∀ c : Dev nD,
      r.2.mem ((c.tc : Thread nD τ).loc main_v61) = W12 m ρ c (Proc.devRef .tc main_v61)
      ∧ r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v61 (by decide)),
       h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Results

end
-- ==== Proof.GcnSpec.lean ====
/-
  The mathematics of one graph-convolution stack, independent of any program.

  A layer multiplies the node features by a weight matrix, aggregates the scaled rows along the edges, and adds a
  bias (the first layer then takes the positive part). The aggregation is the same computation on both sides of the
  comparison; what differs is how the product and the bias step are carried out. Here are those two steps as
  functions of whole arrays over the extended reals, index by index:

    * `matProd a w` at (p, q) is the sum over k of a (p, k) · w (k, q);
    * `addRow z r` at (p, q) is z (p, q) + r (0, q), for a one-row array r;
    * `reluOf z` at an index is the larger of z there and the number the all-zero 32-bit word denotes.
-/
import Idealize.ShloMosaic.Lib.ValueIdx
import Idealize.ShloMosaic.PureOps.Ideal

noncomputable section

namespace Cert.Gcn

open Idealize.ShloMosaic Idealize.ShloMosaic.ValueIdx

/-- The product of an [M, K] array with a [K, N] array: at (p, q), the sum over k of a (p, k) · w (k, q). -/
def matProd {M K N : Nat} (a : FVec Ideal ⟨2, ![M, K]⟩ .f32) (w : FVec Ideal ⟨2, ![K, N]⟩ .f32) :
    FVec Ideal ⟨2, ![M, N]⟩ .f32 :=
  fun i => ∑ k : Fin K, a (ix2 (i 0) k) * w (ix2 k (i 1))

/-- A one-row array added to every row: at (p, q), z (p, q) + r (0, q). -/
def addRow {M N : Nat} (z : FVec Ideal ⟨2, ![M, N]⟩ .f32) (r : FVec Ideal ⟨2, ![1, N]⟩ .f32) :
    FVec Ideal ⟨2, ![M, N]⟩ .f32 :=
  fun i => z i + r (ix2 (0 : Fin 1) (i 1))

/-- The positive part: at every index the larger of the entry and zero (zero as the all-zero word's value). -/
def reluOf {M N : Nat} (z : FVec Ideal ⟨2, ![M, N]⟩ .f32) : FVec Ideal ⟨2, ![M, N]⟩ .f32 :=
  fun i => max (z i) (Ideal.ofBits .f32 0x00000000#32)

end Cert.Gcn

end
-- ==== Proof.EdgeStage.lean ====
/-
  The part of the computation that runs outside the six calls, as named functions of whole arrays.

  From the edge array [2, 1600000] the program builds, once: the message sources (row 0 followed by 0 … 99999, the
  self loops), the message targets (row 1 followed by the same), the degree of every node (ones added up at the
  targets), its inverse square root where the degree is positive and zero elsewhere, and the norm of every message
  (that number at the source times that number at the target). Then, once per layer, it gathers the rows of a linear
  array at the sources (an index below zero has 100000 added, as jnp indexing does), scales row e by the norm of
  message e, and adds the rows up at the targets from zeros; and it stands the layer's bias vector up as one row.

  Each stretch of these operations between two calls is read here from ANY contents W of the buffers when the stretch
  starts: what it leaves in the buffers it writes is one of the functions below of what W holds in the buffers it
  reads, and every buffer it does not write keeps what W held.
-/
import proofs.«140030_j7791070674960_1_alg».proof.Proof.Gen.KernelIdeal.Launch
import Idealize.ShloMosaic.Lib.StableHlo.Run

set_option maxRecDepth 16384

noncomputable section

namespace Cert.KernelIdeal.EdgeStage

open Cert.KernelIdeal Cert.KernelIdeal.Gen
open Idealize.ShloMosaic Idealize.ShloMosaic.TcCoe Idealize.ShloMosaic.StableHlo
open Idealize.SL.Sem

variable {F : FTy → Type} [FloatOps F]

/-! ## The functions -/

/-- One row of the edge array followed by 0 … 99999. -/
def endsOf (row : Nat) (h : S2x1600000.Slices ![row, 0] S1x1600000) (e : IVec S2x1600000 32) : IVec S1700000 32 :=
  concatenate S1700000 0 [⟨S1600000, shapeCast S1600000 (extractStridedSlice S1x1600000 ![row, 0] e h) shapeCasts_S1x1600000_S1600000⟩,
    ⟨S100000, iotaInDim S100000 32 0⟩] concatenates_S1600000_S100000_S1700000_d0

/-- The message sources. -/
def srcOf (e : IVec S2x1600000 32) : IVec S1700000 32 := endsOf 0 slices_S2x1600000_S1x1600000_0_0 e
/-- The message targets. -/
def dstOf (e : IVec S2x1600000 32) : IVec S1700000 32 := endsOf 1 slices_S2x1600000_S1x1600000_1_0 e

/-- An index vector as a column of start indices, an index below zero moved up by 100000. -/
def wrapIdx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Every node's degree: ones added up at the targets, from zeros. -/
def degOf (dst : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- Its inverse square root where the degree is positive, zero elsewhere. -/
def dinvOf (dst : IVec S1700000 32) : FVec F S100000 .f32 :=
  select (cmpf .ogt (degOf (F := F) dst) (broadcastInDim S100000 ![] bcast_S_S100000 (constant S_ .f32 0x00000000#32)))
    (Host.rsqrt (degOf (F := F) dst))
    (broadcastInDim S100000 ![] bcast_S_S100000 (id (constant S_ .f32 0x00000000#32)))

/-- Every message's norm: that number at its source times that number at its target. -/
def normOf (src dst : IVec S1700000 32) : FVec F S1700000 .f32 :=
  mulf (Host.gather gather_S100000_S1700000x1_S1700000_n_0_n_n_0_1_1 (dinvOf (F := F) dst) (wrapIdx src))
    (Host.gather gather_S100000_S1700000x1_S1700000_n_0_n_n_0_1_1 (dinvOf (F := F) dst) (wrapIdx dst))

/-- One layer's aggregation of a linear array [100000, 64]: gather its rows at the (wrapped) sources, scale row e by
    the edge's norm, and add the rows up at the targets, starting from zeros. -/
def agg64 (lin : FVec F S100000x64 .f32) (src dst : IVec S1700000 32) (nrm : FVec F S1700000 .f32) :
    FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 lin (wrapIdx src))
      (broadcastInDim S1700000x64 ![0, 1] bcast_S1700000x1_S1700000x64_0_1
        (broadcastInDim S1700000x1 ![0] bcast_S1700000_S1700000x1_0 nrm)))

/-- One layer's aggregation of a linear array [100000, 32]: gather its rows at the (wrapped) sources, scale row e by
    the edge's norm, and add the rows up at the targets, starting from zeros. -/
def agg32 (lin : FVec F S100000x32 .f32) (src dst : IVec S1700000 32) (nrm : FVec F S1700000 .f32) :
    FVec F S100000x32 .f32 :=
  Host.scatterAdd scatter_S100000x32_S1700000x1_S1700000x32_1_0_0_1
    (broadcastInDim S100000x32 ![] bcast_S_S100000x32 (constant S_ .f32 0x00000000#32))
    (broadcastInDim S1700000x1 ![0] bcast_S1700000_S1700000x1_0 dst)
    (mulf (Host.gather gather_S100000x32_S1700000x1_S1700000x32_1_0_n_n_0_1_132 lin (wrapIdx src))
      (broadcastInDim S1700000x32 ![0, 1] bcast_S1700000x1_S1700000x32_0_1
        (broadcastInDim S1700000x1 ![0] bcast_S1700000_S1700000x1_0 nrm)))

/-- A bias vector [64] stood up as one row [1, 64]. -/
def rowOf64 (b : FVec F S64 .f32) : FVec F S1x64 .f32 := shapeCast S1x64 b shapeCasts_S64_S1x64
/-- A bias vector [32] stood up as one row [1, 32]. -/
def rowOf32 (b : FVec F S32 .f32) : FVec F S1x32 .f32 := shapeCast S1x32 b shapeCasts_S32_S1x32

/-! ## The stretch before the first call -/

/-- The three opening stretches one after the other. -/
abbrev opening (W : Valuation τ sig (Elt F)) : Valuation τ sig (Elt F) :=
  StableHlo.after hostOps0_2 (StableHlo.after hostOps0_1 (StableHlo.after hostOps0 W))

theorem opening_src (W : Valuation τ sig (Elt F)) :
    opening W (Proc.devRef .tc main_v3) = srcOf (W (Proc.devRef .tc main_arg1)) := by
  dsimp only [opening, hostOps0, hostOps0_1, hostOps0_2]; after_results; rfl

theorem opening_dst (W : Valuation τ sig (Elt F)) :
    opening W (Proc.devRef .tc main_v6) = dstOf (W (Proc.devRef .tc main_arg1)) := by
  dsimp only [opening, hostOps0, hostOps0_1, hostOps0_2]; after_results; rfl

set_option maxHeartbeats 4000000 in
theorem opening_norm (W : Valuation τ sig (Elt F)) :
    opening W (Proc.devRef .tc main_v29)
      = normOf (srcOf (W (Proc.devRef .tc main_arg1))) (dstOf (W (Proc.devRef .tc main_arg1))) := by
  dsimp only [opening, hostOps0, hostOps0_1, hostOps0_2]; after_results_simp; rfl

theorem opening_keeps_main_arg0 (W : Valuation τ sig (Elt F)) :
    opening W (Proc.devRef .tc main_arg0) = W (Proc.devRef .tc main_arg0) := by
  dsimp only [opening, hostOps0, hostOps0_1, hostOps0_2]; after_results

theorem opening_keeps_main_arg2 (W : Valuation τ sig (Elt F)) :
    opening W (Proc.devRef .tc main_arg2) = W (Proc.devRef .tc main_arg2) := by
  dsimp only [opening, hostOps0, hostOps0_1, hostOps0_2]; after_results

theorem opening_keeps_main_arg3 (W : Valuation τ sig (Elt F)) :
    opening W (Proc.devRef .tc main_arg3) = W (Proc.devRef .tc main_arg3) := by
  dsimp only [opening, hostOps0, hostOps0_1, hostOps0_2]; after_results

theorem opening_keeps_main_arg4 (W : Valuation τ sig (Elt F)) :
    opening W (Proc.devRef .tc main_arg4) = W (Proc.devRef .tc main_arg4) := by
  dsimp only [opening, hostOps0, hostOps0_1, hostOps0_2]; after_results

theorem opening_keeps_main_arg5 (W : Valuation τ sig (Elt F)) :
    opening W (Proc.devRef .tc main_arg5) = W (Proc.devRef .tc main_arg5) := by
  dsimp only [opening, hostOps0, hostOps0_1, hostOps0_2]; after_results

theorem opening_keeps_main_arg6 (W : Valuation τ sig (Elt F)) :
    opening W (Proc.devRef .tc main_arg6) = W (Proc.devRef .tc main_arg6) := by
  dsimp only [opening, hostOps0, hostOps0_1, hostOps0_2]; after_results

theorem opening_keeps_main_arg7 (W : Valuation τ sig (Elt F)) :
    opening W (Proc.devRef .tc main_arg7) = W (Proc.devRef .tc main_arg7) := by
  dsimp only [opening, hostOps0, hostOps0_1, hostOps0_2]; after_results

/-! ## The stretch between the first dense call and the first bias call -/

set_option maxHeartbeats 4000000 in
/-- What this stretch leaves in its aggregated buffer: the aggregation of the linear array it found. -/
theorem first_agg (W : Valuation τ sig (Elt F)) :
    StableHlo.after hostOps1 W (Proc.devRef .tc main_v43)
      = agg64 (W (Proc.devRef .tc main_v30)) (W (Proc.devRef .tc main_v3)) (W (Proc.devRef .tc main_v6)) (W (Proc.devRef .tc main_v29)) := by
  dsimp only [hostOps1]; after_results_simp; rfl

/-- and in its bias buffer: the bias vector as one row. -/
theorem first_row (W : Valuation τ sig (Elt F)) :
    StableHlo.after hostOps1 W (Proc.devRef .tc main_v44)
      = rowOf64 (W (Proc.devRef .tc main_arg3)) := by
  dsimp only [hostOps1]; after_results; rfl

theorem first_keeps_main_v3 (W : Valuation τ sig (Elt F)) :
    StableHlo.after hostOps1 W (Proc.devRef .tc main_v3) = W (Proc.devRef .tc main_v3) := by
  dsimp only [hostOps1]; after_results

theorem first_keeps_main_v6 (W : Valuation τ sig (Elt F)) :
    StableHlo.after hostOps1 W (Proc.devRef .tc main_v6) = W (Proc.devRef .tc main_v6) := by
  dsimp only [hostOps1]; after_results

theorem first_keeps_main_v29 (W : Valuation τ sig (Elt F)) :
    StableHlo.after hostOps1 W (Proc.devRef .tc main_v29) = W (Proc.devRef .tc main_v29) := by
  dsimp only [hostOps1]; after_results

theorem first_keeps_main_arg4 (W : Valuation τ sig (Elt F)) :
    StableHlo.after hostOps1 W (Proc.devRef .tc main_arg4) = W (Proc.devRef .tc main_arg4) := by
  dsimp only [hostOps1]; after_results

theorem first_keeps_main_arg5 (W : Valuation τ sig (Elt F)) :
    StableHlo.after hostOps1 W (Proc.devRef .tc main_arg5) = W (Proc.devRef .tc main_arg5) := by
  dsimp only [hostOps1]; after_results

theorem first_keeps_main_arg6 (W : Valuation τ sig (Elt F)) :
    StableHlo.after hostOps1 W (Proc.devRef .tc main_arg6) = W (Proc.devRef .tc main_arg6) := by
  dsimp only [hostOps1]; after_results

theorem first_keeps_main_arg7 (W : Valuation τ sig (Elt F)) :
    StableHlo.after hostOps1 W (Proc.devRef .tc main_arg7) = W (Proc.devRef .tc main_arg7) := by
  dsimp only [hostOps1]; after_results

/-! ## The stretch between the second dense call and the second bias call -/

set_option maxHeartbeats 4000000 in
/-- What this stretch leaves in its aggregated buffer: the aggregation of the linear array it found. -/
theorem second_agg (W : Valuation τ sig (Elt F)) :
    StableHlo.after hostOps3 W (Proc.devRef .tc main_v59)
      = agg32 (W (Proc.devRef .tc main_v46)) (W (Proc.devRef .tc main_v3)) (W (Proc.devRef .tc main_v6)) (W (Proc.devRef .tc main_v29)) := by
  dsimp only [hostOps3]; after_results_simp; rfl

/-- and in its bias buffer: the bias vector as one row. -/
theorem second_row (W : Valuation τ sig (Elt F)) :
    StableHlo.after hostOps3 W (Proc.devRef .tc main_v60)
      = rowOf32 (W (Proc.devRef .tc main_arg5)) := by
  dsimp only [hostOps3]; after_results; rfl

theorem second_keeps_main_v3 (W : Valuation τ sig (Elt F)) :
    StableHlo.after hostOps3 W (Proc.devRef .tc main_v3) = W (Proc.devRef .tc main_v3) := by
  dsimp only [hostOps3]; after_results

theorem second_keeps_main_v6 (W : Valuation τ sig (Elt F)) :
    StableHlo.after hostOps3 W (Proc.devRef .tc main_v6) = W (Proc.devRef .tc main_v6) := by
  dsimp only [hostOps3]; after_results

theorem second_keeps_main_v29 (W : Valuation τ sig (Elt F)) :
    StableHlo.after hostOps3 W (Proc.devRef .tc main_v29) = W (Proc.devRef .tc main_v29) := by
  dsimp only [hostOps3]; after_results

theorem second_keeps_main_v45 (W : Valuation τ sig (Elt F)) :
    StableHlo.after hostOps3 W (Proc.devRef .tc main_v45) = W (Proc.devRef .tc main_v45) := by
  dsimp only [hostOps3]; after_results

theorem second_keeps_main_arg6 (W : Valuation τ sig (Elt F)) :
    StableHlo.after hostOps3 W (Proc.devRef .tc main_arg6) = W (Proc.devRef .tc main_arg6) := by
  dsimp only [hostOps3]; after_results

theorem second_keeps_main_arg7 (W : Valuation τ sig (Elt F)) :
    StableHlo.after hostOps3 W (Proc.devRef .tc main_arg7) = W (Proc.devRef .tc main_arg7) := by
  dsimp only [hostOps3]; after_results

/-! ## The stretch between the third dense call and the third bias call -/

set_option maxHeartbeats 4000000 in
/-- What this stretch leaves in its aggregated buffer: the aggregation of the linear array it found. -/
theorem third_agg (W : Valuation τ sig (Elt F)) :
    StableHlo.after hostOps5 W (Proc.devRef .tc main_v75)
      = agg32 (W (Proc.devRef .tc main_v62)) (W (Proc.devRef .tc main_v3)) (W (Proc.devRef .tc main_v6)) (W (Proc.devRef .tc main_v29)) := by
  dsimp only [hostOps5]; after_results_simp; rfl

/-- and in its bias buffer: the bias vector as one row. -/
theorem third_row (W : Valuation τ sig (Elt F)) :
    StableHlo.after hostOps5 W (Proc.devRef .tc main_v76)
      = rowOf32 (W (Proc.devRef .tc main_arg7)) := by
  dsimp only [hostOps5]; after_results; rfl

theorem third_keeps_main_v61 (W : Valuation τ sig (Elt F)) :
    StableHlo.after hostOps5 W (Proc.devRef .tc main_v61) = W (Proc.devRef .tc main_v61) := by
  dsimp only [hostOps5]; after_results

end Cert.KernelIdeal.EdgeStage

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Dense0.lean ====
/-
  The first dense call: the node features [100000, 128] times the first weight [128, 64].

  A grid point t of this call reads rows 10000·t … 10000·t + 9999 of the left array and the whole weight, and writes
  the same rows of the result: the block it writes back is the product of its row block with the weight, so entry
  (p, q) of the block is the sum over k of left (10000·t + p, k) · weight (k, q) (the change of float format in
  front of the product is the identity on the extended reals, and the product accumulates into zero). The ten row
  blocks tile the result, so the whole result array is the product of the whole left array with the weight.
-/
import proofs.«140030_j7791070674960_1_alg».proof.Proof.Gen.KernelIdeal.Frame
import proofs.«140030_j7791070674960_1_alg».proof.Proof.GcnSpec
import proofs.«140030_j7791070674960_1_alg».proof.Proof.LibPlainDot
import Idealize.ShloMosaic.Lib.Pipeline.Value
import Idealize.ShloMosaic.Lib.ValueIdx

set_option maxRecDepth 16384

noncomputable section

namespace Cert.KernelIdeal.Dense0

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the sum over k of the row block at (p, k) times the weight at (k, q). -/
theorem stored_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.Lib.matmul_zero_apply (M := 10000) (K := 128) (N := 64) _ none _ _ p q

/-- The printed index maps over the grid: the left window and the result window sit on row block t, the weight
    window on the whole weight. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some grid point's. -/
theorem index_onto : ∀ b : Fin 10, ∃ t : Fin cfg0.N, t.val = b.val :=
  (by decide +kernel : ∀ b : Fin 10, ∃ t : Fin grid0.N, t.val = b.val)

/-- What grid point t writes back is row block t of the product of the two arrays as the call finds them. -/
theorem written_back (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = matProd (V c main_arg0) (V c main_arg2) (((cfg0.win 2).blk t).view.emb (ix2 p q))
  refine (stored_apply (iblk0 V c 0 t) (iblk0 V c 1 t) p q).trans ?_
  unfold matProd
  refine Finset.sum_congr rfl fun k _ => ?_
  have hl : iblk0 V c 0 t (ix2 p k)
      = V c main_arg0 (ix2 ((((cfg0.win 2).blk t).view.emb (ix2 p q)) 0) k) := by
    show V c main_arg0 (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : iblk0 V c 1 t (ix2 k q)
      = V c main_arg2 (ix2 k ((((cfg0.win 2).blk t).view.emb (ix2 p q)) 1)) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hl, hr]

/-- An index of the result lies in grid point t's block iff each coordinate lies in the block's range. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks cover the result: row r is in block r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have ht' : t.val = (i 0).val / 10000 := ht
  obtain ⟨e0, e1, e2, e3, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE RESULT ARRAY when the call returns: the product of the two arrays the call was entered with. -/
theorem value (c : Dev nD) :
    (dat0 (F := Ideal) V c).arrAt 2 cfg0.N = matProd (V c main_arg0) (V c main_arg2) :=
  (dat0 V c).arrAt_eq_of_cover 2 _ (fun t _ => written_back V c t) covered

end Cert.KernelIdeal.Dense0

end
-- ==== Proof.Bias1.lean ====
/-
  The first bias call: the first layer's aggregated array [100000, 64] plus the first bias as a row [1, 64], positive part taken.

  A grid point t of this call reads rows 10000·t … 10000·t + 9999 of the aggregated array and the one-row bias, and
  writes the same rows of the result: entry (p, q) of the block it writes back is the aggregated entry at
  (10000·t + p, q) plus the bias at (0, q), and then the larger of that and zero. The ten row blocks tile the result, so the whole
  result array is the aggregated array with the bias row added to every row, positive part taken.
-/
import proofs.«140030_j7791070674960_1_alg».proof.Proof.Gen.KernelIdeal.Frame
import proofs.«140030_j7791070674960_1_alg».proof.Proof.GcnSpec
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the block's entry there plus the bias row's entry q, positive part taken. -/
theorem stored_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S10000x64 x1 broadcasts_S1x64_S10000x64 (ix2 p q)) _ = _
  rw [broadcastTo_1b_ab_apply]
  rfl

/-- The printed index maps over the grid: the aggregated window and the result window sit on row block t, the bias
    window on the whole bias row. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some grid point's. -/
theorem index_onto : ∀ b : Fin 10, ∃ t : Fin cfg1.N, t.val = b.val :=
  (by decide +kernel : ∀ b : Fin 10, ∃ t : Fin grid1.N, t.val = b.val)

/-- What grid point t writes back is row block t of the biased array of the two arrays as the call finds them. -/
theorem written_back (c : Dev nD) (t : Fin cfg1.N) :
    (dat1 (F := Ideal) V c).flushed 2 t
      = ((cfg1.win 2).blk t).view.read (Elt Ideal) (reluOf (addRow (V c main_v43) (V c main_v44))) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := index_facts t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = (reluOf (addRow (V c main_v43) (V c main_v44))) (((cfg1.win 2).blk t).view.emb (ix2 p q))
  refine (stored_apply (iblk1 V c 0 t) (iblk1 V c 1 t) p q).trans ?_
  have hl : iblk1 V c 0 t (ix2 p q) = V c main_v43 (((cfg1.win 2).blk t).view.emb (ix2 p q)) := by
    show V c main_v43 (((cfg1.win 0).blk t).view.emb (ix2 p q)) = _
    refine congrArg _ (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have hr : iblk1 V c 1 t (ix2 (0 : Fin 1) q)
      = V c main_v44 (ix2 (0 : Fin 1) ((((cfg1.win 2).blk t).view.emb (ix2 p q)) 1)) := by
    show V c main_v44 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [hl, hr]
  rfl

/-- An index of the result lies in grid point t's block iff each coordinate lies in the block's range. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks cover the result: row r is in block r / 10000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have ht' : t.val = (i 0).val / 10000 := ht
  obtain ⟨e0, e1, e2, e3, e4, e5⟩ := index_facts t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE RESULT ARRAY when the call returns: the aggregated array the call was entered with, the bias row added to
    every row, positive part taken. -/
theorem value (c : Dev nD) :
    (dat1 (F := Ideal) V c).arrAt 2 cfg1.N = reluOf (addRow (V c main_v43) (V c main_v44)) :=
  (dat1 V c).arrAt_eq_of_cover 2 _ (fun t _ => written_back V c t) covered

end Cert.KernelIdeal.Bias1

end
-- ==== Proof.Dense2.lean ====
/-
  The second layer's first dense call: the first layer's output [100000, 64] times the second weight [64, 32].

  A grid point t of this call reads rows 10000·t … 10000·t + 9999 of the left array and the whole weight, and writes
  the same rows of the result: the block it writes back is the product of its row block with the weight, so entry
  (p, q) of the block is the sum over k of left (10000·t + p, k) · weight (k, q) (the change of float format in
  front of the product is the identity on the extended reals, and the product accumulates into zero). The ten row
  blocks tile the result, so the whole result array is the product of the whole left array with the weight.
-/
import proofs.«140030_j7791070674960_1_alg».proof.Proof.Gen.KernelIdeal.Frame
import proofs.«140030_j7791070674960_1_alg».proof.Proof.GcnSpec
import proofs.«140030_j7791070674960_1_alg».proof.Proof.LibPlainDot
import Idealize.ShloMosaic.Lib.Pipeline.Value
import Idealize.ShloMosaic.Lib.ValueIdx

set_option maxRecDepth 16384

noncomputable section

namespace Cert.KernelIdeal.Dense2

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the sum over k of the row block at (p, k) times the weight at (k, q). -/
theorem stored_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  rw [shapeCast_self]
  exact Cert.Lib.matmul_zero_apply (M := 10000) (K := 64) (N := 32) _ none _ _ p q

/-- The printed index maps over the grid: the left window and the result window sit on row block t, the weight
    window on the whole weight. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some grid point's. -/
theorem index_onto : ∀ b : Fin 10, ∃ t : Fin cfg2.N, t.val = b.val :=
  (by decide +kernel : ∀ b : Fin 10, ∃ t : Fin grid2.N, t.val = b.val)

/-- What grid point t writes back is row block t of the product of the two arrays as the call finds them. -/
theorem written_back (c : Dev nD) (t : Fin cfg2.N) :
    (dat2 (F := Ideal) V c).flushed 2 t
      = ((cfg2.win 2).blk t).view.read (Elt Ideal) (matProd (V c main_v45) (V c main_arg4)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x32) origin]
  obtain ⟨e0, e1, e2, e3, e4, e5⟩ := index_facts t
  funext j
  obtain ⟨p, q, rfl⟩ : ∃ (p : Fin 10000) (q : Fin 32), j = ix2 p q := ⟨j 0, j 1, eq_ix2 j⟩
  show k2_pay1 (iblk2 V c 0 t) (iblk2 V c 1 t) (ix2 p q)
    = matProd (V c main_v45) (V c main_arg4) (((cfg2.win 2).blk t).view.emb (ix2 p q))
  refine (stored_apply (iblk2 V c 0 t) (iblk2 V c 1 t) p q).trans ?_
  unfold matProd
  refine Finset.sum_congr rfl fun k _ => ?_
  have hl : iblk2 V c 0 t (ix2 p k)
      = V c main_v45 (ix2 ((((cfg2.win 2).blk t).view.emb (ix2 p q)) 0) k) := by
    show V c main_v45 (((cfg2.win 0).blk t).view.emb (ix2 p k)) = _
    refine congrArg _ (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hr : iblk2 V c 1 t (ix2 k q)
      = V c main_arg4 (ix2 k ((((cfg2.win 2).blk t).view.emb (ix2 p q)) 1)) := by
    show V c main_arg4 (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  rw [hl, hr]

/-- An index of the result lies in grid point t's block iff each coordinate lies in the block's range. -/
theorem mem_block (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v46).slice (win2_2.rect t)).set ↔ _
  rw [View.set_slice_whole, Rect.mem_set_unit]
  exact Iff.rfl

/-- The ten row blocks cover the result: row r is in block r / 10000. -/
theorem covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := index_onto ⟨(i 0).val / 10000, by omega⟩
  have ht' : t.val = (i 0).val / 10000 := ht
  obtain ⟨e0, e1, e2, e3, e4, e5⟩ := index_facts t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- THE RESULT ARRAY when the call returns: the product of the two arrays the call was entered with. -/
theorem value (c : Dev nD) :
    (dat2 (F := Ideal) V c).arrAt 2 cfg2.N = matProd (V c main_v45) (V c main_arg4) :=
  (dat2 V c).arrAt_eq_of_cover 2 _ (fun t _ => written_back V c t) covered

end Cert.KernelIdeal.Dense2

end
-- ==== Proof.Bias3.lean ====
/-
  The second bias call: the aggregated array [100000, 32] of the second weight's branch plus the second bias as a row [1, 32].

  A grid point t of this call reads rows 10000·t … 10000·t + 9999 of the aggregated array and the one-row bias, and
  writes the same rows of the result: entry (p, q) of the block it writes back is the aggregated entry at
  (10000·t + p, q) plus the bias at (0, q). The ten row blocks tile the result, so the whole
  result array is the aggregated array with the bias row added to every row.
-/
import proofs.«140030_j7791070674960_1_alg».proof.Proof.Gen.KernelIdeal.Frame
import proofs.«140030_j7791070674960_1_alg».proof.Proof.GcnSpec
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the block's entry there plus the bias row's entry q. -/
theorem stored_apply (x0 : Vec Ideal S10000x32 .f32) (x1 : Vec Ideal S1x32 .f32) (p : Fin 10000) (q : Fin 32) :
    k3_pay1 x0 x1 (ix2 p q) = x0 (ix2 p q) + x1 (ix2 (0 : Fin 1) q) := by
  unfold k3_pay1
  rw [shapeCast_self, shapeCast_self]
  show x0 (ix2 p q) + broadcastTo S10000x32 x1 broadcasts_S1x32_S10000x32 (ix2 p q) = _
  rw [broadcastTo_1b_ab_apply]

/-- The printed index maps over the grid: the aggregated window and the result window sit on row block t, the bias
    window on the whole bias row. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block is some grid point's. -/
theorem index_onto : ∀ b : Fin 10, ∃ t : Fin cfg3.N, t.val = b.val :=
  (by decide +kernel : ∀ b : Fin 10, ∃ t : Fin grid3.N, t.val = b.val)

/-- What grid point t writes back is row block t of the biased array of the two arrays as the call finds them. -/
theorem written_back (c : Dev nD) (t : Fin cfg3.N) :
    (dat3 (F := Ideal) V c).flushed 2 t
      = ((cfg3.win 2).blk t).view.read (Elt Ideal) (addRow (V c main_v59) (V c main_v60)) := by
  show (cfg3.win 2).cut (grid3.coords t) ((dat3 V c).after 2 t) = _
  rw [after3_2]
  unfold out3_2
  rw [View.canon_unit_zero origin]
  simp only [View.ld_unit_zero (S := S10000x32) origin, View.ld_unit_zero (S := S1x32) origin]
  obtain ⟨e0, e1, e2, e3, e4, e5⟩ := index_facts t
  funext j
  obtain ⟨p, q, rfl⟩ : ∃ (p : Fin 10000) (q : Fin 32), j = ix2 p q := ⟨j 0, j 1, eq_ix2 j⟩
  show k3_pay1 (iblk3 V c 0 t) (iblk3 V c 1 t) (ix2 p q)
    = (addRow (V c main_v59) (V c main_v60)) (((cfg3.win 2).blk t).view.emb (ix2 p q))
  refine (stored_apply (iblk3 V c 0 t) (iblk3 V c 1 t) p q).trans ?_
  have hl : iblk3 V c 0 t (ix2 p q) = V c main_v59 (((cfg3.win 2).blk t).view.emb (ix2 p q)) := by
    show V c main_v59 (((cfg3.win 0).blk t).view.emb (ix2 p q)) = _
    refine congrArg _ (funext fun a => Fin.ext ?_)
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * q.val = win3_2.index t (1 : Fin 2) * 32 + 1 * q.val; omega
  have hr : iblk3 V c 1 t (ix2 (0 : Fin 1) q)
      = V c main_v60 (ix2 (0 : Fin 1) ((((cfg3.win 2).blk t).view.emb (ix2 p q)) 1)) := by
    show V c main_v60 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [hl, hr]
  rfl

/-- An index of the result lies in grid point t's block iff each coordinate lies in the block's range. -/
theorem mem_block (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v61).slice (win3_2.rect t)).set ↔ _
  rw [View.set_slice_whole, Rect.mem_set_unit]
  exact Iff.rfl

/-- The ten row blocks cover the result: row r is in block r / 10000. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := index_onto ⟨(i 0).val / 10000, by omega⟩
  have ht' : t.val = (i 0).val / 10000 := ht
  obtain ⟨e0, e1, e2, e3, e4, e5⟩ := index_facts t
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- THE RESULT ARRAY when the call returns: the aggregated array the call was entered with, the bias row added to
    every row. -/
theorem value (c : Dev nD) :
    (dat3 (F := Ideal) V c).arrAt 2 cfg3.N = addRow (V c main_v59) (V c main_v60) :=
  (dat3 V c).arrAt_eq_of_cover 2 _ (fun t _ => written_back V c t) covered

end Cert.KernelIdeal.Bias3

end
-- ==== Proof.Dense4.lean ====
/-
  The second layer's other dense call: the first layer's output [100000, 64] times the third weight [64, 32].

  A grid point t of this call reads rows 10000·t … 10000·t + 9999 of the left array and the whole weight, and writes
  the same rows of the result: the block it writes back is the product of its row block with the weight, so entry
  (p, q) of the block is the sum over k of left (10000·t + p, k) · weight (k, q) (the change of float format in
  front of the product is the identity on the extended reals, and the product accumulates into zero). The ten row
  blocks tile the result, so the whole result array is the product of the whole left array with the weight.
-/
import proofs.«140030_j7791070674960_1_alg».proof.Proof.Gen.KernelIdeal.Frame
import proofs.«140030_j7791070674960_1_alg».proof.Proof.GcnSpec
import proofs.«140030_j7791070674960_1_alg».proof.Proof.LibPlainDot
import Idealize.ShloMosaic.Lib.Pipeline.Value
import Idealize.ShloMosaic.Lib.ValueIdx

set_option maxRecDepth 16384

noncomputable section

namespace Cert.KernelIdeal.Dense4

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the sum over k of the row block at (p, k) times the weight at (k, q). -/
theorem stored_apply (x0 : Vec Ideal S10000x64 .f32) (x1 : Vec Ideal S64x32 .f32) (p : Fin 10000) (q : Fin 32) :
    k4_pay1 x0 x1 (ix2 p q) = ∑ k : Fin 64, x0 (ix2 p k) * x1 (ix2 k q) := by
  unfold k4_pay1
  rw [shapeCast_self]
  exact Cert.Lib.matmul_zero_apply (M := 10000) (K := 64) (N := 32) _ none _ _ p q

/-- The printed index maps over the grid: the left window and the result window sit on row block t, the weight
    window on the whole weight. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some grid point's. -/
theorem index_onto : ∀ b : Fin 10, ∃ t : Fin cfg4.N, t.val = b.val :=
  (by decide +kernel : ∀ b : Fin 10, ∃ t : Fin grid4.N, t.val = b.val)

/-- What grid point t writes back is row block t of the product of the two arrays as the call finds them. -/
theorem written_back (c : Dev nD) (t : Fin cfg4.N) :
    (dat4 (F := Ideal) V c).flushed 2 t
      = ((cfg4.win 2).blk t).view.read (Elt Ideal) (matProd (V c main_v45) (V c main_arg6)) := by
  show (cfg4.win 2).cut (grid4.coords t) ((dat4 V c).after 2 t) = _
  rw [after4_2]
  unfold out4_2
  rw [View.canon_unit_zero origin]
  simp only [View.ld_unit_zero (S := S10000x64) origin, View.ld_unit_zero (S := S64x32) origin]
  obtain ⟨e0, e1, e2, e3, e4, e5⟩ := index_facts t
  funext j
  obtain ⟨p, q, rfl⟩ : ∃ (p : Fin 10000) (q : Fin 32), j = ix2 p q := ⟨j 0, j 1, eq_ix2 j⟩
  show k4_pay1 (iblk4 V c 0 t) (iblk4 V c 1 t) (ix2 p q)
    = matProd (V c main_v45) (V c main_arg6) (((cfg4.win 2).blk t).view.emb (ix2 p q))
  refine (stored_apply (iblk4 V c 0 t) (iblk4 V c 1 t) p q).trans ?_
  unfold matProd
  refine Finset.sum_congr rfl fun k _ => ?_
  have hl : iblk4 V c 0 t (ix2 p k)
      = V c main_v45 (ix2 ((((cfg4.win 2).blk t).view.emb (ix2 p q)) 0) k) := by
    show V c main_v45 (((cfg4.win 0).blk t).view.emb (ix2 p k)) = _
    refine congrArg _ (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * k.val = k.val; omega
  have hr : iblk4 V c 1 t (ix2 k q)
      = V c main_arg6 (ix2 k ((((cfg4.win 2).blk t).view.emb (ix2 p q)) 1)) := by
    show V c main_arg6 (((cfg4.win 1).blk t).view.emb (ix2 k q)) = _
    refine congrArg _ (funext fun a => Fin.ext ?_)
    match a with
    | ⟨0, _⟩ => show win4_1.index t (0 : Fin 2) * 64 + 1 * k.val = k.val; omega
    | ⟨1, _⟩ => show win4_1.index t (1 : Fin 2) * 32 + 1 * q.val = win4_2.index t (1 : Fin 2) * 32 + 1 * q.val; omega
  rw [hl, hr]

/-- An index of the result lies in grid point t's block iff each coordinate lies in the block's range. -/
theorem mem_block (t : Fin cfg4.N) (i : S100000x32.Idx) :
    i ∈ ((cfg4.win 2).blk t).view.set ↔ ∀ a : Fin 2, win4_2.index t a * S10000x32.size a ≤ (i a).val
      ∧ (i a).val < win4_2.index t a * S10000x32.size a + S10000x32.size a := by
  show i ∈ ((View.whole main_v62).slice (win4_2.rect t)).set ↔ _
  rw [View.set_slice_whole, Rect.mem_set_unit]
  exact Iff.rfl

/-- The ten row blocks cover the result: row r is in block r / 10000. -/
theorem covered (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  obtain ⟨t, ht⟩ := index_onto ⟨(i 0).val / 10000, by omega⟩
  have ht' : t.val = (i 0).val / 10000 := ht
  obtain ⟨e0, e1, e2, e3, e4, e5⟩ := index_facts t
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 32 ≤ (i 1).val ∧ (i 1).val < win4_2.index t (1 : Fin 2) * 32 + 32; omega

/-- THE RESULT ARRAY when the call returns: the product of the two arrays the call was entered with. -/
theorem value (c : Dev nD) :
    (dat4 (F := Ideal) V c).arrAt 2 cfg4.N = matProd (V c main_v45) (V c main_arg6) :=
  (dat4 V c).arrAt_eq_of_cover 2 _ (fun t _ => written_back V c t) covered

end Cert.KernelIdeal.Dense4

end
-- ==== Proof.Bias5.lean ====
/-
  The third bias call: the aggregated array [100000, 32] of the third weight's branch plus the third bias as a row [1, 32].

  A grid point t of this call reads rows 10000·t … 10000·t + 9999 of the aggregated array and the one-row bias, and
  writes the same rows of the result: entry (p, q) of the block it writes back is the aggregated entry at
  (10000·t + p, q) plus the bias at (0, q). The ten row blocks tile the result, so the whole
  result array is the aggregated array with the bias row added to every row.
-/
import proofs.«140030_j7791070674960_1_alg».proof.Proof.Gen.KernelIdeal.Frame
import proofs.«140030_j7791070674960_1_alg».proof.Proof.GcnSpec
import Idealize.ShloMosaic.Lib.Pipeline.Value
import Idealize.ShloMosaic.Lib.ValueIdx
import Idealize.ShloMosaic.Lib.ValueLayout

set_option maxRecDepth 16384

noncomputable section

namespace Cert.KernelIdeal.Bias5

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the block's entry there plus the bias row's entry q. -/
theorem stored_apply (x0 : Vec Ideal S10000x32 .f32) (x1 : Vec Ideal S1x32 .f32) (p : Fin 10000) (q : Fin 32) :
    k5_pay1 x0 x1 (ix2 p q) = x0 (ix2 p q) + x1 (ix2 (0 : Fin 1) q) := by
  unfold k5_pay1
  rw [shapeCast_self, shapeCast_self]
  show x0 (ix2 p q) + broadcastTo S10000x32 x1 broadcasts_S1x32_S10000x32 (ix2 p q) = _
  rw [broadcastTo_1b_ab_apply]

/-- The printed index maps over the grid: the aggregated window and the result window sit on row block t, the bias
    window on the whole bias row. -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every row block is some grid point's. -/
theorem index_onto : ∀ b : Fin 10, ∃ t : Fin cfg5.N, t.val = b.val :=
  (by decide +kernel : ∀ b : Fin 10, ∃ t : Fin grid5.N, t.val = b.val)

/-- What grid point t writes back is row block t of the biased array of the two arrays as the call finds them. -/
theorem written_back (c : Dev nD) (t : Fin cfg5.N) :
    (dat5 (F := Ideal) V c).flushed 2 t
      = ((cfg5.win 2).blk t).view.read (Elt Ideal) (addRow (V c main_v75) (V c main_v76)) := by
  show (cfg5.win 2).cut (grid5.coords t) ((dat5 V c).after 2 t) = _
  rw [after5_2]
  unfold out5_2
  rw [View.canon_unit_zero origin]
  simp only [View.ld_unit_zero (S := S10000x32) origin, View.ld_unit_zero (S := S1x32) origin]
  obtain ⟨e0, e1, e2, e3, e4, e5⟩ := index_facts t
  funext j
  obtain ⟨p, q, rfl⟩ : ∃ (p : Fin 10000) (q : Fin 32), j = ix2 p q := ⟨j 0, j 1, eq_ix2 j⟩
  show k5_pay1 (iblk5 V c 0 t) (iblk5 V c 1 t) (ix2 p q)
    = (addRow (V c main_v75) (V c main_v76)) (((cfg5.win 2).blk t).view.emb (ix2 p q))
  refine (stored_apply (iblk5 V c 0 t) (iblk5 V c 1 t) p q).trans ?_
  have hl : iblk5 V c 0 t (ix2 p q) = V c main_v75 (((cfg5.win 2).blk t).view.emb (ix2 p q)) := by
    show V c main_v75 (((cfg5.win 0).blk t).view.emb (ix2 p q)) = _
    refine congrArg _ (funext fun a => Fin.ext ?_)
    match a with
    | ⟨0, _⟩ => show win5_0.index t (0 : Fin 2) * 10000 + 1 * p.val = win5_2.index t (0 : Fin 2) * 10000 + 1 * p.val; omega
    | ⟨1, _⟩ => show win5_0.index t (1 : Fin 2) * 32 + 1 * q.val = win5_2.index t (1 : Fin 2) * 32 + 1 * q.val; omega
  have hr : iblk5 V c 1 t (ix2 (0 : Fin 1) q)
      = V c main_v76 (ix2 (0 : Fin 1) ((((cfg5.win 2).blk t).view.emb (ix2 p q)) 1)) := by
    show V c main_v76 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 32 + 1 * q.val = win5_2.index t (1 : Fin 2) * 32 + 1 * q.val; omega
  rw [hl, hr]
  rfl

/-- An index of the result lies in grid point t's block iff each coordinate lies in the block's range. -/
theorem mem_block (t : Fin cfg5.N) (i : S100000x32.Idx) :
    i ∈ ((cfg5.win 2).blk t).view.set ↔ ∀ a : Fin 2, win5_2.index t a * S10000x32.size a ≤ (i a).val
      ∧ (i a).val < win5_2.index t a * S10000x32.size a + S10000x32.size a := by
  show i ∈ ((View.whole main_v77).slice (win5_2.rect t)).set ↔ _
  rw [View.set_slice_whole, Rect.mem_set_unit]
  exact Iff.rfl

/-- The ten row blocks cover the result: row r is in block r / 10000. -/
theorem covered (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  obtain ⟨t, ht⟩ := index_onto ⟨(i 0).val / 10000, by omega⟩
  have ht' : t.val = (i 0).val / 10000 := ht
  obtain ⟨e0, e1, e2, e3, e4, e5⟩ := index_facts t
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 32 ≤ (i 1).val ∧ (i 1).val < win5_2.index t (1 : Fin 2) * 32 + 32; omega

/-- THE RESULT ARRAY when the call returns: the aggregated array the call was entered with, the bias row added to
    every row. -/
theorem value (c : Dev nD) :
    (dat5 (F := Ideal) V c).arrAt 2 cfg5.N = addRow (V c main_v75) (V c main_v76) :=
  (dat5 V c).arrAt_eq_of_cover 2 _ (fun t _ => written_back V c t) covered

end Cert.KernelIdeal.Bias5

end
-- ==== Proof.KernelValue.lean ====
/-
  What the idealized kernel program's two result buffers hold when it returns, as functions of the launch memory.

  The program is twelve segments: an opening stretch of host operations that builds the message sources, targets and
  norms from the edge array; then, three times, a dense call (a product with a weight), a stretch that aggregates the
  product along the edges and stands the bias up as a row, and a bias call (the first one also takes the positive
  part). The second and third layers both read the first layer's output. Segment by segment, each buffer that a later
  segment reads holds:

    sources, targets, norms          functions of the edge array alone, kept by every later segment;
    after the first dense call       lin1 = features · W1;
    after its stretch                the aggregation of lin1, and b1 as a row;
    after the first bias call        hid = the positive part of (aggregation + b1);
    after the second dense call      hid · W2;           after its stretch: its aggregation, and b2 as a row;
    after the second bias call       out2 = aggregation + b2      (the first result);
    after the third dense call       hid · W3;           after its stretch: its aggregation, and b3 as a row;
    after the third bias call        out3 = aggregation + b3      (the second result).

  A buffer a call does not list among its arrays, and a buffer a stretch does not write, keeps what it held.
-/
import proofs.«140030_j7791070674960_1_alg».proof.Proof.Gen.KernelIdeal.Frame
import proofs.«140030_j7791070674960_1_alg».proof.Proof.GcnSpec
import proofs.«140030_j7791070674960_1_alg».proof.Proof.EdgeStage
import proofs.«140030_j7791070674960_1_alg».proof.Proof.Dense0
import proofs.«140030_j7791070674960_1_alg».proof.Proof.Bias1
import proofs.«140030_j7791070674960_1_alg».proof.Proof.Dense2
import proofs.«140030_j7791070674960_1_alg».proof.Proof.Bias3
import proofs.«140030_j7791070674960_1_alg».proof.Proof.Dense4
import proofs.«140030_j7791070674960_1_alg».proof.Proof.Bias5

set_option maxRecDepth 16384

noncomputable section

namespace Cert.KernelIdeal.Chain

open Cert.KernelIdeal Cert.KernelIdeal.Gen Cert.KernelIdeal.EdgeStage Cert.Gcn
open Idealize.ShloMosaic Idealize.ShloMosaic.TcCoe
open Idealize.SL Idealize.SL.Sem

variable (m : (ℓ : Loc nD τ sig) → Buf (Elt Ideal) ℓ) (ρ : Dev nD → PrngReg)

/-! ## The values, from the launch memory -/

/-- The message sources. -/
def src (c : Dev nD) : IVec S1700000 32 := srcOf (m ((c : Thread nD τ).loc main_arg1))
/-- The message targets. -/
def dst (c : Dev nD) : IVec S1700000 32 := dstOf (m ((c : Thread nD τ).loc main_arg1))
/-- The message norms. -/
def nrm (c : Dev nD) : FVec Ideal S1700000 .f32 := normOf (F := Ideal) (src m c) (dst m c)
/-- The first product: features · W1. -/
def lin1 (c : Dev nD) : FVec Ideal S100000x64 .f32 := matProd (m ((c : Thread nD τ).loc main_arg0)) (m ((c : Thread nD τ).loc main_arg2))
/-- Its aggregation along the edges. -/
def agg1 (c : Dev nD) : FVec Ideal S100000x64 .f32 := agg64 (F := Ideal) (lin1 m c) (src m c) (dst m c) (nrm m c)
/-- The first layer's output: the positive part of the aggregation plus b1. -/
def hid (c : Dev nD) : FVec Ideal S100000x64 .f32 := reluOf (addRow (agg1 m c) (rowOf64 (F := Ideal) (m ((c : Thread nD τ).loc main_arg3))))
/-- The first result: the aggregation of hid · W2, plus b2. -/
def out2 (c : Dev nD) : FVec Ideal S100000x32 .f32 :=
  addRow (agg32 (F := Ideal) (matProd (hid m c) (m ((c : Thread nD τ).loc main_arg4))) (src m c) (dst m c) (nrm m c)) (rowOf32 (F := Ideal) (m ((c : Thread nD τ).loc main_arg5)))
/-- The second result: the aggregation of hid · W3, plus b3. -/
def out3 (c : Dev nD) : FVec Ideal S100000x32 .f32 :=
  addRow (agg32 (F := Ideal) (matProd (hid m c) (m ((c : Thread nD τ).loc main_arg6))) (src m c) (dst m c) (nrm m c)) (rowOf32 (F := Ideal) (m ((c : Thread nD τ).loc main_arg7)))

/-! ## After the opening stretch -/

theorem w3_v3 (c : Dev nD) : W3 m ρ c (Proc.devRef .tc main_v3) = src m c :=
  EdgeStage.opening_src (W0 m ρ c)

theorem w3_v6 (c : Dev nD) : W3 m ρ c (Proc.devRef .tc main_v6) = dst m c :=
  EdgeStage.opening_dst (W0 m ρ c)

theorem w3_v29 (c : Dev nD) : W3 m ρ c (Proc.devRef .tc main_v29) = nrm m c :=
  EdgeStage.opening_norm (W0 m ρ c)

theorem w3_arg0 (c : Dev nD) : W3 m ρ c (Proc.devRef .tc main_arg0) = m ((c : Thread nD τ).loc main_arg0) :=
  EdgeStage.opening_keeps_main_arg0 (W0 m ρ c)
theorem w3_arg2 (c : Dev nD) : W3 m ρ c (Proc.devRef .tc main_arg2) = m ((c : Thread nD τ).loc main_arg2) :=
  EdgeStage.opening_keeps_main_arg2 (W0 m ρ c)
theorem w3_arg3 (c : Dev nD) : W3 m ρ c (Proc.devRef .tc main_arg3) = m ((c : Thread nD τ).loc main_arg3) :=
  EdgeStage.opening_keeps_main_arg3 (W0 m ρ c)
theorem w3_arg4 (c : Dev nD) : W3 m ρ c (Proc.devRef .tc main_arg4) = m ((c : Thread nD τ).loc main_arg4) :=
  EdgeStage.opening_keeps_main_arg4 (W0 m ρ c)
theorem w3_arg5 (c : Dev nD) : W3 m ρ c (Proc.devRef .tc main_arg5) = m ((c : Thread nD τ).loc main_arg5) :=
  EdgeStage.opening_keeps_main_arg5 (W0 m ρ c)
theorem w3_arg6 (c : Dev nD) : W3 m ρ c (Proc.devRef .tc main_arg6) = m ((c : Thread nD τ).loc main_arg6) :=
  EdgeStage.opening_keeps_main_arg6 (W0 m ρ c)
theorem w3_arg7 (c : Dev nD) : W3 m ρ c (Proc.devRef .tc main_arg7) = m ((c : Thread nD τ).loc main_arg7) :=
  EdgeStage.opening_keeps_main_arg7 (W0 m ρ c)

/-! ## After the first dense call -/

theorem w4_v3 (c : Dev nD) : W4 m ρ c (Proc.devRef .tc main_v3) = src m c :=
  (W4_of_ne m ρ c main_v3 (by decide)).trans (w3_v3 m ρ c)
theorem w4_v6 (c : Dev nD) : W4 m ρ c (Proc.devRef .tc main_v6) = dst m c :=
  (W4_of_ne m ρ c main_v6 (by decide)).trans (w3_v6 m ρ c)
theorem w4_v29 (c : Dev nD) : W4 m ρ c (Proc.devRef .tc main_v29) = nrm m c :=
  (W4_of_ne m ρ c main_v29 (by decide)).trans (w3_v29 m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)
theorem w4_arg5 (c : Dev nD) : W4 m ρ c (Proc.devRef .tc main_arg5) = m ((c : Thread nD τ).loc main_arg5) :=
  (W4_of_ne m ρ c main_arg5 (by decide)).trans (w3_arg5 m ρ c)
theorem w4_arg6 (c : Dev nD) : W4 m ρ c (Proc.devRef .tc main_arg6) = m ((c : Thread nD τ).loc main_arg6) :=
  (W4_of_ne m ρ c main_arg6 (by decide)).trans (w3_arg6 m ρ c)
theorem w4_arg7 (c : Dev nD) : W4 m ρ c (Proc.devRef .tc main_arg7) = m ((c : Thread nD τ).loc main_arg7) :=
  (W4_of_ne m ρ c main_arg7 (by decide)).trans (w3_arg7 m ρ c)

theorem w4_v30 (c : Dev nD) : W4 m ρ c (Proc.devRef .tc main_v30) = lin1 m c :=
  (W4_arr m ρ c 2).trans ((Dense0.value (V3 m ρ) c).trans (congrArg₂ matProd (w3_arg0 m ρ c) (w3_arg2 m ρ c)))

/-! ## After the first aggregation stretch -/

theorem w5_v3 (c : Dev nD) : W5 m ρ c (Proc.devRef .tc main_v3) = src m c :=
  (EdgeStage.first_keeps_main_v3 (W4 m ρ c)).trans (w4_v3 m ρ c)
theorem w5_v6 (c : Dev nD) : W5 m ρ c (Proc.devRef .tc main_v6) = dst m c :=
  (EdgeStage.first_keeps_main_v6 (W4 m ρ c)).trans (w4_v6 m ρ c)
theorem w5_v29 (c : Dev nD) : W5 m ρ c (Proc.devRef .tc main_v29) = nrm m c :=
  (EdgeStage.first_keeps_main_v29 (W4 m ρ c)).trans (w4_v29 m ρ c)
theorem w5_arg4 (c : Dev nD) : W5 m ρ c (Proc.devRef .tc main_arg4) = m ((c : Thread nD τ).loc main_arg4) :=
  (EdgeStage.first_keeps_main_arg4 (W4 m ρ c)).trans (w4_arg4 m ρ c)
theorem w5_arg5 (c : Dev nD) : W5 m ρ c (Proc.devRef .tc main_arg5) = m ((c : Thread nD τ).loc main_arg5) :=
  (EdgeStage.first_keeps_main_arg5 (W4 m ρ c)).trans (w4_arg5 m ρ c)
theorem w5_arg6 (c : Dev nD) : W5 m ρ c (Proc.devRef .tc main_arg6) = m ((c : Thread nD τ).loc main_arg6) :=
  (EdgeStage.first_keeps_main_arg6 (W4 m ρ c)).trans (w4_arg6 m ρ c)
theorem w5_arg7 (c : Dev nD) : W5 m ρ c (Proc.devRef .tc main_arg7) = m ((c : Thread nD τ).loc main_arg7) :=
  (EdgeStage.first_keeps_main_arg7 (W4 m ρ c)).trans (w4_arg7 m ρ c)

theorem w5_v43 (c : Dev nD) : W5 m ρ c (Proc.devRef .tc main_v43) = agg1 m c :=
  (EdgeStage.first_agg (W4 m ρ c)).trans (by rw [w4_v30 m ρ c, w4_v3 m ρ c, w4_v6 m ρ c, w4_v29 m ρ c]; rfl)

theorem w5_v44 (c : Dev nD) : W5 m ρ c (Proc.devRef .tc main_v44) = rowOf64 (F := Ideal) (m ((c : Thread nD τ).loc main_arg3)) :=
  (EdgeStage.first_row (W4 m ρ c)).trans (by rw [w4_arg3 m ρ c])

/-! ## After the first bias call -/

theorem w6_v3 (c : Dev nD) : W6 m ρ c (Proc.devRef .tc main_v3) = src m c :=
  (W6_of_ne m ρ c main_v3 (by decide)).trans (w5_v3 m ρ c)
theorem w6_v6 (c : Dev nD) : W6 m ρ c (Proc.devRef .tc main_v6) = dst m c :=
  (W6_of_ne m ρ c main_v6 (by decide)).trans (w5_v6 m ρ c)
theorem w6_v29 (c : Dev nD) : W6 m ρ c (Proc.devRef .tc main_v29) = nrm m c :=
  (W6_of_ne m ρ c main_v29 (by decide)).trans (w5_v29 m ρ c)
theorem w6_arg4 (c : Dev nD) : W6 m ρ c (Proc.devRef .tc main_arg4) = m ((c : Thread nD τ).loc main_arg4) :=
  (W6_of_ne m ρ c main_arg4 (by decide)).trans (w5_arg4 m ρ c)
theorem w6_arg5 (c : Dev nD) : W6 m ρ c (Proc.devRef .tc main_arg5) = m ((c : Thread nD τ).loc main_arg5) :=
  (W6_of_ne m ρ c main_arg5 (by decide)).trans (w5_arg5 m ρ c)
theorem w6_arg6 (c : Dev nD) : W6 m ρ c (Proc.devRef .tc main_arg6) = m ((c : Thread nD τ).loc main_arg6) :=
  (W6_of_ne m ρ c main_arg6 (by decide)).trans (w5_arg6 m ρ c)
theorem w6_arg7 (c : Dev nD) : W6 m ρ c (Proc.devRef .tc main_arg7) = m ((c : Thread nD τ).loc main_arg7) :=
  (W6_of_ne m ρ c main_arg7 (by decide)).trans (w5_arg7 m ρ c)

theorem w6_v45 (c : Dev nD) : W6 m ρ c (Proc.devRef .tc main_v45) = hid m c :=
  (W6_arr m ρ c 2).trans ((Bias1.value (V5 m ρ) c).trans (congrArg₂ (fun a b => reluOf (addRow a b)) (w5_v43 m ρ c) (w5_v44 m ρ c)))

/-! ## After the second dense call (the first layer's output is one of its inputs, and stays) -/

theorem w7_v3 (c : Dev nD) : W7 m ρ c (Proc.devRef .tc main_v3) = src m c :=
  (W7_of_ne m ρ c main_v3 (by decide)).trans (w6_v3 m ρ c)
theorem w7_v6 (c : Dev nD) : W7 m ρ c (Proc.devRef .tc main_v6) = dst m c :=
  (W7_of_ne m ρ c main_v6 (by decide)).trans (w6_v6 m ρ c)
theorem w7_v29 (c : Dev nD) : W7 m ρ c (Proc.devRef .tc main_v29) = nrm m c :=
  (W7_of_ne m ρ c main_v29 (by decide)).trans (w6_v29 m ρ c)
theorem w7_arg5 (c : Dev nD) : W7 m ρ c (Proc.devRef .tc main_arg5) = m ((c : Thread nD τ).loc main_arg5) :=
  (W7_of_ne m ρ c main_arg5 (by decide)).trans (w6_arg5 m ρ c)
theorem w7_arg6 (c : Dev nD) : W7 m ρ c (Proc.devRef .tc main_arg6) = m ((c : Thread nD τ).loc main_arg6) :=
  (W7_of_ne m ρ c main_arg6 (by decide)).trans (w6_arg6 m ρ c)
theorem w7_arg7 (c : Dev nD) : W7 m ρ c (Proc.devRef .tc main_arg7) = m ((c : Thread nD τ).loc main_arg7) :=
  (W7_of_ne m ρ c main_arg7 (by decide)).trans (w6_arg7 m ρ c)

theorem w7_v45 (c : Dev nD) : W7 m ρ c (Proc.devRef .tc main_v45) = hid m c :=
  (W7_arr m ρ c 0).trans (((dat2 (V6 m ρ) c).arrAt_in 0 rfl _).trans ((A_eq2 (V6 m ρ) c 0).trans (w6_v45 m ρ c)))

theorem w7_v46 (c : Dev nD) : W7 m ρ c (Proc.devRef .tc main_v46) = matProd (hid m c) (m ((c : Thread nD τ).loc main_arg4)) :=
  (W7_arr m ρ c 2).trans ((Dense2.value (V6 m ρ) c).trans (congrArg₂ matProd (w6_v45 m ρ c) (w6_arg4 m ρ c)))

/-! ## After the second aggregation stretch -/

theorem w8_v3 (c : Dev nD) : W8 m ρ c (Proc.devRef .tc main_v3) = src m c :=
  (EdgeStage.second_keeps_main_v3 (W7 m ρ c)).trans (w7_v3 m ρ c)
theorem w8_v6 (c : Dev nD) : W8 m ρ c (Proc.devRef .tc main_v6) = dst m c :=
  (EdgeStage.second_keeps_main_v6 (W7 m ρ c)).trans (w7_v6 m ρ c)
theorem w8_v29 (c : Dev nD) : W8 m ρ c (Proc.devRef .tc main_v29) = nrm m c :=
  (EdgeStage.second_keeps_main_v29 (W7 m ρ c)).trans (w7_v29 m ρ c)
theorem w8_v45 (c : Dev nD) : W8 m ρ c (Proc.devRef .tc main_v45) = hid m c :=
  (EdgeStage.second_keeps_main_v45 (W7 m ρ c)).trans (w7_v45 m ρ c)
theorem w8_arg6 (c : Dev nD) : W8 m ρ c (Proc.devRef .tc main_arg6) = m ((c : Thread nD τ).loc main_arg6) :=
  (EdgeStage.second_keeps_main_arg6 (W7 m ρ c)).trans (w7_arg6 m ρ c)
theorem w8_arg7 (c : Dev nD) : W8 m ρ c (Proc.devRef .tc main_arg7) = m ((c : Thread nD τ).loc main_arg7) :=
  (EdgeStage.second_keeps_main_arg7 (W7 m ρ c)).trans (w7_arg7 m ρ c)

theorem w8_v59 (c : Dev nD) : W8 m ρ c (Proc.devRef .tc main_v59) = agg32 (F := Ideal) (matProd (hid m c) (m ((c : Thread nD τ).loc main_arg4))) (src m c) (dst m c) (nrm m c) :=
  (EdgeStage.second_agg (W7 m ρ c)).trans (by rw [w7_v46 m ρ c, w7_v3 m ρ c, w7_v6 m ρ c, w7_v29 m ρ c])

theorem w8_v60 (c : Dev nD) : W8 m ρ c (Proc.devRef .tc main_v60) = rowOf32 (F := Ideal) (m ((c : Thread nD τ).loc main_arg5)) :=
  (EdgeStage.second_row (W7 m ρ c)).trans (by rw [w7_arg5 m ρ c])

/-! ## After the second bias call: the first result -/

theorem w9_v3 (c : Dev nD) : W9 m ρ c (Proc.devRef .tc main_v3) = src m c :=
  (W9_of_ne m ρ c main_v3 (by decide)).trans (w8_v3 m ρ c)
theorem w9_v6 (c : Dev nD) : W9 m ρ c (Proc.devRef .tc main_v6) = dst m c :=
  (W9_of_ne m ρ c main_v6 (by decide)).trans (w8_v6 m ρ c)
theorem w9_v29 (c : Dev nD) : W9 m ρ c (Proc.devRef .tc main_v29) = nrm m c :=
  (W9_of_ne m ρ c main_v29 (by decide)).trans (w8_v29 m ρ c)
theorem w9_v45 (c : Dev nD) : W9 m ρ c (Proc.devRef .tc main_v45) = hid m c :=
  (W9_of_ne m ρ c main_v45 (by decide)).trans (w8_v45 m ρ c)
theorem w9_arg6 (c : Dev nD) : W9 m ρ c (Proc.devRef .tc main_arg6) = m ((c : Thread nD τ).loc main_arg6) :=
  (W9_of_ne m ρ c main_arg6 (by decide)).trans (w8_arg6 m ρ c)
theorem w9_arg7 (c : Dev nD) : W9 m ρ c (Proc.devRef .tc main_arg7) = m ((c : Thread nD τ).loc main_arg7) :=
  (W9_of_ne m ρ c main_arg7 (by decide)).trans (w8_arg7 m ρ c)

theorem w9_v61 (c : Dev nD) : W9 m ρ c (Proc.devRef .tc main_v61) = out2 m c :=
  (W9_arr m ρ c 2).trans ((Bias3.value (V8 m ρ) c).trans (congrArg₂ addRow (w8_v59 m ρ c) (w8_v60 m ρ c)))

/-! ## After the third dense call -/

theorem w10_v3 (c : Dev nD) : W10 m ρ c (Proc.devRef .tc main_v3) = src m c :=
  (W10_of_ne m ρ c main_v3 (by decide)).trans (w9_v3 m ρ c)
theorem w10_v6 (c : Dev nD) : W10 m ρ c (Proc.devRef .tc main_v6) = dst m c :=
  (W10_of_ne m ρ c main_v6 (by decide)).trans (w9_v6 m ρ c)
theorem w10_v29 (c : Dev nD) : W10 m ρ c (Proc.devRef .tc main_v29) = nrm m c :=
  (W10_of_ne m ρ c main_v29 (by decide)).trans (w9_v29 m ρ c)
theorem w10_arg7 (c : Dev nD) : W10 m ρ c (Proc.devRef .tc main_arg7) = m ((c : Thread nD τ).loc main_arg7) :=
  (W10_of_ne m ρ c main_arg7 (by decide)).trans (w9_arg7 m ρ c)
theorem w10_v61 (c : Dev nD) : W10 m ρ c (Proc.devRef .tc main_v61) = out2 m c :=
  (W10_of_ne m ρ c main_v61 (by decide)).trans (w9_v61 m ρ c)

theorem w10_v62 (c : Dev nD) : W10 m ρ c (Proc.devRef .tc main_v62) = matProd (hid m c) (m ((c : Thread nD τ).loc main_arg6)) :=
  (W10_arr m ρ c 2).trans ((Dense4.value (V9 m ρ) c).trans (congrArg₂ matProd (w9_v45 m ρ c) (w9_arg6 m ρ c)))

/-! ## After the third aggregation stretch -/

theorem w11_v61 (c : Dev nD) : W11 m ρ c (Proc.devRef .tc main_v61) = out2 m c :=
  (EdgeStage.third_keeps_main_v61 (W10 m ρ c)).trans (w10_v61 m ρ c)

theorem w11_v75 (c : Dev nD) : W11 m ρ c (Proc.devRef .tc main_v75) = agg32 (F := Ideal) (matProd (hid m c) (m ((c : Thread nD τ).loc main_arg6))) (src m c) (dst m c) (nrm m c) :=
  (EdgeStage.third_agg (W10 m ρ c)).trans (by rw [w10_v62 m ρ c, w10_v3 m ρ c, w10_v6 m ρ c, w10_v29 m ρ c])

theorem w11_v76 (c : Dev nD) : W11 m ρ c (Proc.devRef .tc main_v76) = rowOf32 (F := Ideal) (m ((c : Thread nD τ).loc main_arg7)) :=
  (EdgeStage.third_row (W10 m ρ c)).trans (by rw [w10_arg7 m ρ c])

/-! ## After the third bias call: both results -/

theorem w12_v61 (c : Dev nD) : W12 m ρ c (Proc.devRef .tc main_v61) = out2 m c :=
  (W12_of_ne m ρ c main_v61 (by decide)).trans (w11_v61 m ρ c)

theorem w12_v77 (c : Dev nD) : W12 m ρ c (Proc.devRef .tc main_v77) = out3 m c :=
  (W12_arr m ρ c 2).trans ((Bias5.value (V11 m ρ) c).trans (congrArg₂ addRow (w11_v75 m ρ c) (w11_v76 m ρ c)))

end Cert.KernelIdeal.Chain

end
-- ==== Proof.GcnStack.lean ====
/-
  The whole two-layer computation as ONE function of six arrays: the node features x, the edge array e, the first
  layer's weight and bias, and one second-layer weight and bias.

      stack x e W1 b1 W b  =  aggregate (relu (aggregate (x · W1) + b1) · W) + b

  where "aggregate" gathers rows at the message sources, scales each by its message's norm and adds them up at the
  message targets, and sources, targets and norms are functions of e alone. The program's two results are this function
  at (W2, b2) and at (W3, b3).
-/
import proofs.«140030_j7791070674960_1_alg».proof.Proof.GcnSpec
import proofs.«140030_j7791070674960_1_alg».proof.Proof.EdgeStage

noncomputable section

namespace Cert.KernelIdeal.Stack

open Cert.KernelIdeal Cert.KernelIdeal.EdgeStage Cert.Gcn
open Idealize.ShloMosaic

/-- The first layer's output: relu (aggregate (x · W1) + b1). -/
def firstLayer (x : FVec Ideal S100000x128 .f32) (e : IVec S2x1600000 32) (w1 : FVec Ideal S128x64 .f32) (b1 : FVec Ideal S64 .f32) :
    FVec Ideal S100000x64 .f32 :=
  reluOf (addRow (agg64 (F := Ideal) (matProd x w1) (srcOf e) (dstOf e) (normOf (F := Ideal) (srcOf e) (dstOf e))) (rowOf64 (F := Ideal) b1))

/-- One result: aggregate (firstLayer · W) + b. -/
def stack (x : FVec Ideal S100000x128 .f32) (e : IVec S2x1600000 32) (w1 : FVec Ideal S128x64 .f32) (b1 : FVec Ideal S64 .f32)
    (w : FVec Ideal S64x32 .f32) (b : FVec Ideal S32 .f32) : FVec Ideal S100000x32 .f32 :=
  addRow (agg32 (F := Ideal) (matProd (firstLayer x e w1 b1) w) (srcOf e) (dstOf e) (normOf (F := Ideal) (srcOf e) (dstOf e))) (rowOf32 (F := Ideal) b)

end Cert.KernelIdeal.Stack

end
-- ==== Proof.RefValue.lean ====
/-
  The reference program's two results are the same function `stack` of its arguments.

  The reference's run leaves in each result buffer one composed term of the argument arrays. That term is, operation
  for operation, the reference's own text: the opening operations on the edge array, then per layer a host matrix
  product, the gather / scale / scatter-add, a bias vector broadcast to a row and down the rows and added (and, after the
  first layer, the maximum with a broadcast zero). Two steps bring it to `stack`:

    1. regrouping, by unfolding names only: the edge operations and each layer's gather / scale / scatter-add are the
       named functions of EdgeStage, so the term is `hostStack` below — `stack` with the host's product, bias add and
       maximum where `stack` has matProd, addRow and reluOf;
    2. three equations between whole arrays: the host's product is matProd (both are the sum over k of
       a (p, k) · w (k, q)); a bias vector broadcast to [1, N] and then to [M, N] and added is addRow of the vector
       stood up as a row (both add b (q) at (p, q)); the maximum with a broadcast zero is reluOf.
-/
import proofs.«140030_j7791070674960_1_alg».proof.Proof.RefRunPatched
import proofs.«140030_j7791070674960_1_alg».proof.Proof.GcnStack
import proofs.«140030_j7791070674960_1_alg».proof.Proof.LibPlainDot
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.ReferenceIdeal.Form

open Cert.ReferenceIdeal Cert.ReferenceIdeal.Gen Cert.Gcn
open Cert.KernelIdeal.EdgeStage (srcOf dstOf normOf agg64 agg32 rowOf64 rowOf32)
open Cert.KernelIdeal.Stack (stack firstLayer)
open Idealize.ShloMosaic Idealize.ShloMosaic.TcCoe Idealize.ShloMosaic.ValueIdx
open Idealize.SL.Sem

/-! ## The three equations between whole arrays -/

/-- The host's plain matrix product is matProd. -/
theorem dot_eq {M K N : Nat} (wf : DotDims.WF ⟨2, ![M, K]⟩ ⟨2, ![K, N]⟩ ⟨2, ![M, N]⟩ [1] [0] [0] [1] [] [])
    (a : FVec Ideal ⟨2, ![M, K]⟩ .f32) (w : FVec Ideal ⟨2, ![K, N]⟩ .f32) :
    Host.dotGeneral (Cert.Lib.plainDot M K N wf) none a w = matProd a w := by
  funext i
  obtain ⟨p, q, rfl⟩ : ∃ (p : Fin M) (q : Fin N), i = ix2 p q := ⟨i 0, i 1, eq_ix2 i⟩
  unfold matProd
  exact Cert.Lib.dotGeneral_plain_apply wf none .single a w p q

/-- A bias vector broadcast to a row and then down the rows, added: addRow of the vector stood up as a row. -/
theorem bias_eq {M N : Nat} (h1 : (⟨1, ![N]⟩ : Shape).BroadcastsInDim ⟨2, ![1, N]⟩ ![1])
    (h2 : (⟨2, ![1, N]⟩ : Shape).BroadcastsInDim ⟨2, ![M, N]⟩ ![0, 1]) (h3 : (⟨1, ![N]⟩ : Shape).ShapeCasts ⟨2, ![1, N]⟩)
    (z : FVec Ideal ⟨2, ![M, N]⟩ .f32) (b : FVec Ideal ⟨1, ![N]⟩ .f32) :
    addf z (broadcastInDim ⟨2, ![M, N]⟩ ![0, 1] h2 (broadcastInDim ⟨2, ![1, N]⟩ ![1] h1 b))
      = addRow z (shapeCast ⟨2, ![1, N]⟩ b h3) := by
  funext i
  obtain ⟨p, q, rfl⟩ : ∃ (p : Fin M) (q : Fin N), i = ix2 p q := ⟨i 0, i 1, eq_ix2 i⟩
  show z (ix2 p q) + broadcastInDim ⟨2, ![M, N]⟩ ![0, 1] h2 (broadcastInDim ⟨2, ![1, N]⟩ ![1] h1 b) (ix2 p q)
    = z (ix2 p q) + shapeCast ⟨2, ![1, N]⟩ b h3 (ix2 (0 : Fin 1) q)
  rw [broadcastInDim_oneRow_apply, shapeCast_a_1a_apply]
  refine congrArg _ (broadcastInDim_apply ![1] h1 b (ix2 (0 : Fin 1) q) (ix1 q) fun a => ?_)
  match a with
  | ⟨0, _⟩ =>
    show q.val = if N = 1 then 0 else q.val
    split
    · have := q.isLt; omega
    · rfl

/-- The maximum with a broadcast zero is reluOf. -/
theorem relu_eq {M N : Nat} (h : (⟨0, ![]⟩ : Shape).BroadcastsInDim ⟨2, ![M, N]⟩ ![]) (x : FVec Ideal ⟨2, ![M, N]⟩ .f32) :
    maximumf x (broadcastInDim ⟨2, ![M, N]⟩ ![] h (constant (F := Ideal) ⟨0, ![]⟩ .f32 0x00000000#32)) = reluOf x := by
  funext i
  show max (x i) (broadcastInDim ⟨2, ![M, N]⟩ ![] h (constant (F := Ideal) ⟨0, ![]⟩ .f32 0x00000000#32) i) = max (x i) (Ideal.ofBits .f32 0x00000000#32)
  rw [broadcastInDim_scalar_apply]
  rfl

/-! ## The reference's term, regrouped -/

/-- `stack` with the host's product, bias add and maximum in place of matProd, addRow and reluOf. -/
def hostStack (x : FVec Ideal S100000x128 .f32) (e : IVec S2x1600000 32) (w1 : FVec Ideal S128x64 .f32) (b1 : FVec Ideal S64 .f32)
    (w : FVec Ideal S64x32 .f32) (b : FVec Ideal S32 .f32) : FVec Ideal S100000x32 .f32 :=
  addf (agg32 (F := Ideal) (Host.dotGeneral dot_S100000x64_S64x32_S100000x32_1_0_0_1_n_n none
      (maximumf (addf (agg64 (F := Ideal) (Host.dotGeneral dot_S100000x128_S128x64_S100000x64_1_0_0_1_n_n none x w1) (srcOf e) (dstOf e) (normOf (F := Ideal) (srcOf e) (dstOf e)))
          (broadcastInDim S100000x64 ![0, 1] bcast_S1x64_S100000x64_0_1 (broadcastInDim S1x64 ![1] bcast_S64_S1x64_1 b1)))
        (broadcastInDim S100000x64 ![] bcast_S_S100000x64 (constant S_ .f32 0x00000000#32))) w)
      (srcOf e) (dstOf e) (normOf (F := Ideal) (srcOf e) (dstOf e)))
    (broadcastInDim S100000x32 ![0, 1] bcast_S1x32_S100000x32_0_1 (broadcastInDim S1x32 ![1] bcast_S32_S1x32_1 b))

/-- The host form is `stack`: the three equations, applied where they occur. -/
theorem hostStack_eq (x : FVec Ideal S100000x128 .f32) (e : IVec S2x1600000 32) (w1 : FVec Ideal S128x64 .f32) (b1 : FVec Ideal S64 .f32)
    (w : FVec Ideal S64x32 .f32) (b : FVec Ideal S32 .f32) : hostStack x e w1 b1 w b = stack x e w1 b1 w b := by
  unfold hostStack stack firstLayer rowOf64 rowOf32
  rw [show Host.dotGeneral dot_S100000x128_S128x64_S100000x64_1_0_0_1_n_n none x w1 = matProd x w1 from
        dot_eq (M := 100000) (K := 128) (N := 64) _ x w1,
    bias_eq (M := 100000) (N := 64) bcast_S64_S1x64_1 bcast_S1x64_S100000x64_0_1 Cert.KernelIdeal.Gen.shapeCasts_S64_S1x64,
    relu_eq (M := 100000) (N := 64) bcast_S_S100000x64,
    bias_eq (M := 100000) (N := 32) bcast_S32_S1x32_1 bcast_S1x32_S100000x32_0_1 Cert.KernelIdeal.Gen.shapeCasts_S32_S1x32]
  exact congrArg (fun t => addRow (agg32 (F := Ideal) t (srcOf e) (dstOf e) (normOf (F := Ideal) (srcOf e) (dstOf e))) _)
    (dot_eq (M := 100000) (K := 64) (N := 32) _ _ w)

variable (m : (ℓ : Loc nD τ sig) → Buf (Elt Ideal) ℓ)

set_option maxHeartbeats 1000000 in
/-- The first result's term is the host form at (W2, b2): names unfolded, nothing computed. -/
theorem res0_form (c : Dev nD) :
    ValueP.res_main_v64 (F := Ideal) m c
      = hostStack (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold ValueP.res_main_v64 hostStack
  rfl

set_option maxHeartbeats 1000000 in
/-- The second result's term is the host form at (W3, b3). -/
theorem res1_form (c : Dev nD) :
    ValueP.res_main_v81 (F := Ideal) m c
      = hostStack (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6)) (m ((c.tc : Thread nD τ).loc main_arg7)) := by
  unfold ValueP.res_main_v81 hostStack
  rfl

/-- THE FIRST RESULT is `stack` of the reference's arguments at (W2, b2). -/
theorem res0_eq (c : Dev nD) :
    ValueP.res_main_v64 (F := Ideal) m c
      = stack (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (res0_form m c).trans (hostStack_eq _ _ _ _ _ _)

/-- THE SECOND RESULT is `stack` of the reference's arguments at (W3, b3). -/
theorem res1_eq (c : Dev nD) :
    ValueP.res_main_v81 (F := Ideal) m c
      = stack (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6)) (m ((c.tc : Thread nD τ).loc main_arg7)) :=
  (res1_form m c).trans (hostStack_eq _ _ _ _ _ _)

end Cert.ReferenceIdeal.Form

end
-- ==== Proof.lean ====
/-
  A three-layer graph-convolution encoder, written as six TPU calls among host operations, against the same encoder
  written in plain array operations: over the extended reals the two programs return the same two arrays.

  Both programs take node features x [100000, 128], an edge array [2, 1600000], and three weights and biases. Both build
  the same message sources, targets and norms from the edge array (with a self loop per node), and both aggregate
  along the edges with the same gather / scale / scatter-add. They differ in how a layer's dense part is carried out:

    * the product with the weight: the kernel tiles the rows in ten blocks of 10000 and multiplies each block on the
      matrix unit, after changing the float format of both operands; the reference calls one whole matrix product. Over
      the extended reals a format change is the identity and either product is the sum over k of a (p, k) · w (k, q);
    * the bias: the kernel stands the bias vector up as a row and adds it to each block of rows, taking the larger of
      the sum and zero after the first layer; the reference broadcasts the vector down the rows, adds, and takes the
      maximum with a broadcast zero. Either way entry (p, q) gets b (q) added, and then the positive part.

  So each program's two results are `stack x e W1 b1 W2 b2` and `stack x e W1 b1 W3 b3` (GcnStack.lean) of its own
  arguments, and the arguments agree. No law used here needs finiteness: the precondition is never opened.

  The pieces: Dense0 / Dense2 / Dense4 and Bias1 / Bias3 / Bias5 (what each call leaves in its result array),
  EdgeStage (what each stretch of host operations between the calls leaves), KernelRun (the kernel's run with both
  result buffers named), KernelValue (the walk through the twelve segments), RefRunPatched (the reference's run),
  RefValue (the reference's results are `stack` of its arguments).
-/
import proofs.«140030_j7791070674960_1_alg».proof.Defs
import proofs.«140030_j7791070674960_1_alg».proof.Proof.Gen.Kernel
import proofs.«140030_j7791070674960_1_alg».proof.Proof.Gen.Kernel.Skeleton
import proofs.«140030_j7791070674960_1_alg».proof.Proof.Gen.Kernel.Launch
import proofs.«140030_j7791070674960_1_alg».proof.Proof.Gen.Kernel.Points
import proofs.«140030_j7791070674960_1_alg».proof.Proof.Gen.Kernel.Frame
import proofs.«140030_j7791070674960_1_alg».proof.Proof.Gen.KernelIdeal
import proofs.«140030_j7791070674960_1_alg».proof.Proof.Gen.KernelIdeal.Skeleton
import proofs.«140030_j7791070674960_1_alg».proof.Proof.Gen.KernelIdeal.Launch
import proofs.«140030_j7791070674960_1_alg».proof.Proof.Gen.KernelIdeal.Points
import proofs.«140030_j7791070674960_1_alg».proof.Proof.Gen.KernelIdeal.Frame
import proofs.«140030_j7791070674960_1_alg».proof.Proof.Gen.ReferenceIdeal
import proofs.«140030_j7791070674960_1_alg».proof.Proof.Gen.Pre_finite_inputs
import proofs.«140030_j7791070674960_1_alg».proof.Proof.KernelRun
import proofs.«140030_j7791070674960_1_alg».proof.Proof.KernelValue
import proofs.«140030_j7791070674960_1_alg».proof.Proof.RefRunPatched
import proofs.«140030_j7791070674960_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote no operation of the kernel program. -/
theorem preserves : Cert.preserves_Kernel_KernelIdeal := trivial

/-- Both idealized programs end with the two results at `stack` of the (agreeing) arguments. -/
theorem algebraic : Cert.algebraic_KernelIdeal_ReferenceIdeal := by
  intro m ρ m' ρ' _ hagree
  refine ⟨fun c => Cert.KernelIdeal.Chain.out2 m c, fun c => Cert.KernelIdeal.Chain.out3 m c, ?_, ?_⟩
  · exact (θ_run Cert.KernelIdeal.defs _ _).mono
      (fun r h c => ⟨(h c).1.trans (Cert.KernelIdeal.Chain.w12_v61 m ρ c),
        (h c).2.1.trans (Cert.KernelIdeal.Chain.w12_v77 m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.Form.res0_eq m' c, (hagree c).1, (hagree c).2.1, (hagree c).2.2.1, (hagree c).2.2.2.1,
        (hagree c).2.2.2.2.1, (hagree c).2.2.2.2.2.1]
      rfl
    · rw [Cert.ReferenceIdeal.Form.res1_eq m' c, (hagree c).1, (hagree c).2.1, (hagree c).2.2.1, (hagree c).2.2.2.1,
        (hagree c).2.2.2.2.2.2.1, (hagree c).2.2.2.2.2.2.2]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
